-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S10000x128 .f32) (main_arg1 : FVec F S10000x10000 .f32) (main_arg2 : FVec F S128x128 .f32) (main_arg3 : FVec F S128 .f32) (main_arg4 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩
abbrev S1x1 : Shape := ⟨2, ![1, 1]⟩
abbrev S400x10000 : Shape := ⟨2, ![400, 10000]⟩
abbrev S400x128 : Shape := ⟨2, ![400, 128]⟩

abbrev nBuf : Space → Nat
  | .hbm => 8
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S1x128, .f32⟩
  | .hbm, ⟨6, _⟩ => ⟨S1x1, .f32⟩
  | .hbm, ⟨7, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S1x1, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  shapeCasts_S_S1x1 : S_.ShapeCasts S1x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S400x128_S400x128_0_0 : ∀ a, (![0, 0] : Fin 2 → Nat) a + S400x128.size a ≤ S400x128.size a
  h_S400x128 : 0 < S400x128.numel
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128x128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .i1⟩
  | .hbm, ⟨14, _⟩ => ⟨S10000x128, .f32⟩
  | .hbm, ⟨15, _⟩ => ⟨S10000x128, .f32⟩
  | .hbm, ⟨16, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Found.lean ====
import proofs.«181563_g42597485642290_cont_8to1_b_1741_11_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! # What one grid step leaves behind, as plain values

The body of the kernel does two things. At the first grid step only, it forms the feature matrix (the product of the
whole `seq` block with the whole `W` block, row against row) and stores it over the whole carried scratch. At every
step it then reads the adjacency row block, the scratch, the bias row and the slope, and stores the rectified sum over
the whole output block. Each store covers its buffer, so what a buffer holds afterwards is that store's value, and the
read of the scratch that follows the first step's store sees that store's value. -/

namespace Cert.KernelIdeal.Found

open Cert.KernelIdeal Cert.KernelIdeal.Gen

variable {F : FTy → Type} [FloatOps F]

/-- Offsets `(0, 0)`, however spelt. -/
theorem hz : (![0, 0] : Fin 2 → Nat) = fun _ => 0 := funext fun a => by fin_cases a <;> rfl

/-- The first step leaves the feature matrix of its `seq` and `W` blocks in the carried scratch. -/
theorem scratch_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S400x10000 .f32) (x2 : Vec F S128x128 .f32) (x3 : Vec F S1x128 .f32) (x4 : Vec F S1x1 .f32) :
    sout0_A_0 c i arg1 harg1 arg2 harg2 arg3 harg3 arg4 harg4 arg5 harg5 arg6 harg6 arg7 harg7 hc0 x0 x1 x2 x3 x4 = k0_pay1 x0 x2 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg3.read_unread, View.ld_unit_zero (S := S10000x128) hz,
    View.ld_unit_zero (S := S128x128) hz]

/-- The first step leaves in the output block the rectified sum formed over the feature matrix it has just stored. -/
theorem out_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S400x10000 .f32) (x2 : Vec F S128x128 .f32) (x3 : Vec F S1x128 .f32) (x4 : Vec F S1x1 .f32) :
    out0_A_5 c i arg1 harg1 arg2 harg2 arg3 harg3 arg4 harg4 arg5 harg5 arg6 harg6 arg7 harg7 hc0 x0 x1 x2 x3 x4 = k0_pay2 x1 (k0_pay1 x0 x2) x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz, View.readCov_unit_zero (S := S10000x128) _ hz]
  simp only [View.readAt_eq_ld, harg1.read_unread, harg2.read_unread, harg3.read_unread, harg4.read_unread,
    harg5.read_unread, View.ld_unit_zero (S := S10000x128) hz, View.ld_unit_zero (S := S128x128) hz,
    View.ld_unit_zero (S := S400x10000) hz, View.ld_unit_zero (S := S1x128) hz, View.ld_unit_zero (S := S1x1) hz]

/-- A later step leaves in the output block the rectified sum formed over whatever the scratch held on entry. -/
theorem out_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (hc0 : ¬cond0_0 i)
    (x0 : Vec F S10000x128 .f32) (x1 : Vec F S400x10000 .f32) (x2 : Vec F S128x128 .f32) (x3 : Vec F S1x128 .f32) (x4 : Vec F S1x1 .f32) (xs0 : Vec F S10000x128 .f32) :
    out0_B_5 c i arg1 harg1 arg2 harg2 arg3 harg3 arg4 harg4 arg5 harg5 arg6 harg6 arg7 harg7 hc0 x0 x1 x2 x3 x4 xs0 = k0_pay2 x1 xs0 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  rw [View.canon_unit_zero hz]
  simp only [View.readAt_eq_ld, harg2.read_unread, harg4.read_unread, harg5.read_unread, harg7.read_unread,
    View.ld_unit_zero (S := S10000x128) hz, View.ld_unit_zero (S := S400x10000) hz, View.ld_unit_zero (S := S1x128) hz,
    View.ld_unit_zero (S := S1x1) hz]

end Cert.KernelIdeal.Found

end
-- ==== Proof.GcnSpec.lean ====
/-
  One graph-convolution layer over the extended reals, entry by entry.

  For node features `seq` (10000 × 128), a dense adjacency `adj` (10000 × 10000), a weight matrix `W` (128 × 128,
  one row per output feature), a bias row and a scalar slope `a`:

    feat k j  = Σ_e seq[k, e] · W[j, e]                       (the linear map, `seq · Wᵀ`)
    agg r j   = (Σ_k adj[r, k] · feat k j) + bias[j]          (neighbourhood sum, then the bias)
    layer r j = agg r j            if agg r j ≥ 0
              = a · agg r j        otherwise                   (the parametric rectifier)

  Nothing here needs an entry to be finite: the two programs compared against this function form the same sums of the
  same products in the same nesting, so no sum is ever re-arranged and no factor is moved across a sum.
-/
import Idealize.ShloMosaic.PureOps.Ideal
import Idealize.ShloMosaic.Lib.ValueIdx

noncomputable section

open scoped BigOperators

namespace Cert.GcnSpec

open Idealize.ShloMosaic Idealize.ShloMosaic.ValueIdx

/-- Entry `(k, j)` of `seq · Wᵀ`: row `k` of the features against row `j` of the weights. -/
def feat (seq : (⟨2, ![10000, 128]⟩ : Shape).Idx → EReal) (W : (⟨2, ![128, 128]⟩ : Shape).Idx → EReal)
    (k : Fin 10000) (j : Fin 128) : EReal :=
  ∑ e : Fin 128, seq (ix2 k e) * W (ix2 j e)

/-- Entry `(r, j)` before the rectifier: row `r` of the adjacency against column `j` of `seq · Wᵀ`, plus the bias. -/
def agg (seq : (⟨2, ![10000, 128]⟩ : Shape).Idx → EReal) (adj : (⟨2, ![10000, 10000]⟩ : Shape).Idx → EReal)
    (W : (⟨2, ![128, 128]⟩ : Shape).Idx → EReal) (bias : (⟨1, ![128]⟩ : Shape).Idx → EReal)
    (r : Fin 10000) (j : Fin 128) : EReal :=
  (∑ k : Fin 10000, adj (ix2 r k) * feat seq W k j) + bias (ix1 j)

/-- The parametric rectifier on one extended real: `z` where `z ≥ 0`, else `a · z`. -/
def prelu (a z : EReal) : EReal :=
  Scalar.select (Ideal.cmp .oge z (Ideal.ofBits .f32 0x00000000#32)) z (a * z)

/-- The whole layer as one function of the five argument arrays. -/
def layer (seq : (⟨2, ![10000, 128]⟩ : Shape).Idx → EReal) (adj : (⟨2, ![10000, 10000]⟩ : Shape).Idx → EReal)
    (W : (⟨2, ![128, 128]⟩ : Shape).Idx → EReal) (bias : (⟨1, ![128]⟩ : Shape).Idx → EReal)
    (a : (⟨0, ![]⟩ : Shape).Idx → EReal) : (⟨2, ![10000, 128]⟩ : Shape).Idx → EReal :=
  fun i => prelu (a ix0) (agg seq adj W bias (i 0) (i 1))

end Cert.GcnSpec

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibRowsProduct.lean ====
/-
  A product of two matrices taken row against row: `[a, k] × [b, k] → [a, b]`, the LAST axis of each operand
  contracted (the left operand times the transpose of the right one, without the transpose being formed).

  At output `(i, j)` the contraction's sum of products is the sum over `e : Fin k` of `lhs (i, e) * rhs (j, e)`:
  row `i` of the left operand against row `j` of the right one. Stated on the extended reals, for the vector
  unit's product into a zero accumulator and for the host's product.
-/
import Idealize.ShloMosaic.Lib.ValueIdx
import Idealize.ShloMosaic.PureOps.Ideal.Laws

noncomputable section

namespace Cert.LibRowsProduct

open Idealize.ShloMosaic Idealize.ShloMosaic.ValueIdx

variable {a b k : ℕ}

/-- The dimension numbers of a row-against-row product `[a, k] × [b, k] → [a, b]`: no batch axis, the last axis of
    each operand contracted, the first axes kept in order. -/
abbrev rowsDims (a k b : ℕ)
    (wf : DotDims.WF ⟨2, ![a, k]⟩ ⟨2, ![b, k]⟩ ⟨2, ![a, b]⟩ [1] [1] [0] [0] [] []) :
    DotDims ⟨2, ![a, k]⟩ ⟨2, ![b, k]⟩ ⟨2, ![a, b]⟩ where
  lhsContracting := [1]
  rhsContracting := [1]
  lhsNonContracting := [0]
  rhsNonContracting := [0]
  lhsBatch := []
  rhsBatch := []
  wf := wf

/-- The left operand's index at output `(i, j)` and contraction coordinate `e` is `(i, e)`. -/
theorem rows_lhsIdx (wf : DotDims.WF ⟨2, ![a, k]⟩ ⟨2, ![b, k]⟩ ⟨2, ![a, b]⟩ [1] [1] [0] [0] [] [])
    (i : Fin a) (j : Fin b) (e : Fin k) :
    (rowsDims a k b wf).lhsIdx (ix2 i j) ((contrEquiv1 (rowsDims a k b wf) k rfl rfl).symm e) = ix2 i e := by
  funext ax
  apply Fin.ext
  match ax with
  | ⟨0, _⟩ => rfl
  | ⟨1, _⟩ =>
    exact ((rowsDims a k b wf).lhsIdx_val_of_single rfl (ix2 i j) _).trans
      (contrEquiv1_symm_val (rowsDims a k b wf) k rfl rfl e)

/-- The right operand's index at output `(i, j)` and contraction coordinate `e` is `(j, e)`. -/
theorem rows_rhsIdx (wf : DotDims.WF ⟨2, ![a, k]⟩ ⟨2, ![b, k]⟩ ⟨2, ![a, b]⟩ [1] [1] [0] [0] [] [])
    (i : Fin a) (j : Fin b) (e : Fin k) :
    (rowsDims a k b wf).rhsIdx (ix2 i j) ((contrEquiv1 (rowsDims a k b wf) k rfl rfl).symm e) = ix2 j e := by
  funext ax
  apply Fin.ext
  match ax with
  | ⟨0, _⟩ => rfl
  | ⟨1, _⟩ =>
    exact ((rowsDims a k b wf).rhsIdx_val_of_single rfl (ix2 i j) _).trans
      (contrEquiv1_symm_val (rowsDims a k b wf) k rfl rfl e)

/-- The contraction's sum of products, over the contracted coordinate. -/
theorem rows_sum (wf : DotDims.WF ⟨2, ![a, k]⟩ ⟨2, ![b, k]⟩ ⟨2, ![a, b]⟩ [1] [1] [0] [0] [] [])
    (lhs : (⟨2, ![a, k]⟩ : Shape).Idx → EReal) (rhs : (⟨2, ![b, k]⟩ : Shape).Idx → EReal) (i : Fin a) (j : Fin b) :
    ∑ kk : (rowsDims a k b wf).contr.Idx,
        lhs ((rowsDims a k b wf).lhsIdx (ix2 i j) kk) * rhs ((rowsDims a k b wf).rhsIdx (ix2 i j) kk)
      = ∑ e : Fin k, lhs (ix2 i e) * rhs (ix2 j e) := by
  rw [← Equiv.sum_comp (contrEquiv1 (rowsDims a k b wf) k rfl rfl).symm]
  refine Finset.sum_congr rfl fun e _ => ?_
  rw [rows_lhsIdx wf i j e, rows_rhsIdx wf i j e]

/-- The vector unit's row-against-row product into a zero accumulator, at `(i, j)`: the sum over `e` of
    `lhs (i, e) * rhs (j, e)`. -/
theorem matmul_rows_apply {φ₁ φ₂ : FTy} (wf : DotDims.WF ⟨2, ![a, k]⟩ ⟨2, ![b, k]⟩ ⟨2, ![a, b]⟩ [1] [1] [0] [0] [] [])
    (prec : Option ContractPrecision) (lhs : FVec Ideal ⟨2, ![a, k]⟩ φ₁) (rhs : FVec Ideal ⟨2, ![b, k]⟩ φ₂)
    (i : Fin a) (j : Fin b) :
    FloatOps.matmul (rowsDims a k b wf) prec lhs rhs (constant ⟨2, ![a, b]⟩ .f32 0x00000000#32) (ix2 i j)
      = ∑ e : Fin k, lhs (ix2 i e) * rhs (ix2 j e) :=
  (Ideal.matmul_constant_zero_apply (rowsDims a k b wf) prec lhs rhs (ix2 i j)).trans (rows_sum wf lhs rhs i j)

/-- The host's row-against-row product, at `(i, j)`: the same sum. -/
theorem dotGeneral_rows_apply {φ₁ φ₂ : FTy} (wf : DotDims.WF ⟨2, ![a, k]⟩ ⟨2, ![b, k]⟩ ⟨2, ![a, b]⟩ [1] [1] [0] [0] [] [])
    (prec : Option ContractPrecision) (sched : HostSchedule) (lhs : FVec Ideal ⟨2, ![a, k]⟩ φ₁)
    (rhs : FVec Ideal ⟨2, ![b, k]⟩ φ₂) (i : Fin a) (j : Fin b) :
    FloatOps.dotGeneral (rowsDims a k b wf) prec sched lhs rhs (ix2 i j)
      = ∑ e : Fin k, lhs (ix2 i e) * rhs (ix2 j e) :=
  (Ideal.dotGeneral_apply (rowsDims a k b wf) prec sched lhs rhs (ix2 i j)).trans (rows_sum wf lhs rhs i j)

end Cert.LibRowsProduct

end
-- ==== Proof.Payload.lean ====
import proofs.«181563_g42597485642290_cont_8to1_b_1741_11_alg».proof.Proof.Gen.KernelIdeal.Skeleton
import proofs.«181563_g42597485642290_cont_8to1_b_1741_11_alg».proof.Proof.GcnSpec
import proofs.«181563_g42597485642290_cont_8to1_b_1741_11_alg».proof.Proof.LibRowMax
import proofs.«181563_g42597485642290_cont_8to1_b_1741_11_alg».proof.Proof.LibRowsProduct
import Idealize.ShloMosaic.Lib.ValueLayout
import Idealize.ShloMosaic.Lib.Pipeline.Value
import Idealize.ShloMosaic.PureOps.Ideal.Laws

noncomputable section

open Idealize.ShloMosaic

/-! # The two stored values, entry by entry, on the extended reals

The value stored over the scratch is the row-against-row product of the `seq` block and the `W` block: entry
`(k, j)` is `Σ_e seq[k, e] · W[j, e]`. The value stored over an output block of 400 rows is, at `(p, q)`, the
rectifier applied to `(Σ_k adj[p, k] · scratch[k, q]) + bias[0, q]` with the slope read at `[0, 0]`: a plain
product of the adjacency rows with the scratch, the bias row repeated down the rows, and the rectifier pointwise. -/

namespace Cert.KernelIdeal.Payload

open Cert.KernelIdeal Cert.KernelIdeal.Gen Idealize.ShloMosaic.ValueIdx Cert.GcnSpec

/-- The value stored over the scratch, at `(k, j)`: row `k` of the `seq` block against row `j` of the `W` block. -/
theorem features_apply (x0 : Vec Ideal S10000x128 .f32) (x2 : Vec Ideal S128x128 .f32) (k : Fin 10000) (j : Fin 128) :
    k0_pay1 (F := Ideal) x0 x2 (ix2 k j) = feat x0 x2 k j := by
  unfold k0_pay1
  rw [shapeCast_self]
  exact Cert.LibRowsProduct.matmul_rows_apply Facts₀.dot_S10000x128_S128x128_S10000x128_1_1_0_0_n_n_wf none x0 x2 k j

/-- The value stored over an output block, at `(p, q)`: the rectifier, with the slope block's one entry, of row `p`
    of the adjacency block against column `q` of the scratch, plus the bias row's entry `q`. -/
theorem out_apply (x1 : Vec Ideal S400x10000 .f32) (xs : Vec Ideal S10000x128 .f32) (x3 : Vec Ideal S1x128 .f32)
    (x4 : Vec Ideal S1x1 .f32) (p : Fin 400) (q : Fin 128) :
    k0_pay2 (F := Ideal) x1 xs x3 x4 (ix2 p q)
      = prelu (x4 (ix2 (0 : Fin 1) (0 : Fin 1)))
          ((∑ k : Fin 10000, x1 (ix2 p k) * xs (ix2 k q)) + x3 (ix2 (0 : Fin 1) q)) := by
  have hM : matmul (F := Ideal) (φ₁ := .f32) (φ₂ := .f32) dot_S400x10000_S10000x128_S400x128_1_0_0_1_n_n none x1 xs (constant (F := Ideal) S400x128 .f32 0x00000000#32) (ix2 p q)
      = ∑ k : Fin 10000, x1 (ix2 p k) * xs (ix2 k q) :=
    Cert.LibRowMax.matmul_plain_apply (φ₁ := .f32) (φ₂ := .f32) Facts₀.dot_S400x10000_S10000x128_S400x128_1_0_0_1_n_n_wf none x1 xs p q
  have hB : broadcastTo S400x128 (shapeCast S1x128 x3 Facts₀.shapeCasts_S1x128_S1x128) Facts₀.broadcasts_S1x128_S400x128 (ix2 p q)
      = x3 (ix2 (0 : Fin 1) q) := by
    rw [broadcastTo_1b_ab_apply, shapeCast_self]
  have ha : extractAt ![0, 0] x4 Facts₀.inpos_S1x1_p0_0 = x4 (ix2 (0 : Fin 1) (0 : Fin 1)) :=
    congrArg x4 (funext fun a => Fin.ext (by match a with | ⟨0, _⟩ => rfl | ⟨1, _⟩ => rfl))
  unfold k0_pay2
  rw [select_apply, cmpf_apply, mulf_apply, addf_apply, broadcast_apply, broadcast_apply, hM, hB, ha]
  rfl

/-- An output block's entry is the layer's entry at array index `(r, q)`, once its four loaded blocks are known to be
    what the layer reads there: row `r` of the adjacency, column `q` of the feature matrix, entry `q` of the bias
    and the slope. -/
theorem entry_eq (seq : (⟨2, ![10000, 128]⟩ : Shape).Idx → EReal) (adj : (⟨2, ![10000, 10000]⟩ : Shape).Idx → EReal)
    (W : (⟨2, ![128, 128]⟩ : Shape).Idx → EReal) (bias : (⟨1, ![128]⟩ : Shape).Idx → EReal)
    (a : (⟨0, ![]⟩ : Shape).Idx → EReal)
    (x1 : Vec Ideal S400x10000 .f32) (xs : Vec Ideal S10000x128 .f32) (x3 : Vec Ideal S1x128 .f32)
    (x4 : Vec Ideal S1x1 .f32) (r : Fin 10000) (p : Fin 400) (q : Fin 128)
    (h1 : ∀ k : Fin 10000, x1 (ix2 p k) = adj (ix2 r k))
    (hs : ∀ k : Fin 10000, xs (ix2 k q) = feat seq W k q)
    (h3 : x3 (ix2 (0 : Fin 1) q) = bias (ix1 q))
    (h4 : x4 (ix2 (0 : Fin 1) (0 : Fin 1)) = a ix0)
    (i : (⟨2, ![10000, 128]⟩ : Shape).Idx) (hi : i = ix2 r q) :
    k0_pay2 (F := Ideal) x1 xs x3 x4 (ix2 p q) = layer seq adj W bias a i := by
  subst hi
  rw [out_apply]
  simp only [h1, hs, h3, h4]
  rfl

end Cert.KernelIdeal.Payload

end
-- ==== Proof.Whole.lean ====
import proofs.«181563_g42597485642290_cont_8to1_b_1741_11_alg».proof.Proof.Gen.KernelIdeal.Value
import proofs.«181563_g42597485642290_cont_8to1_b_1741_11_alg».proof.Proof.Found
import proofs.«181563_g42597485642290_cont_8to1_b_1741_11_alg».proof.Proof.Payload
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

/-! # The kernel's result array is the layer

The grid has 25 steps; step `t` owns rows `400·t … 400·t + 399` of the result. The feature matrix is formed at step 0
and nothing stores into the scratch afterwards, so every step reads the same feature matrix. The `seq`, `W`, bias
and slope blocks are the whole arrays at every step; the adjacency block at step `t` is its rows `400·t + p`. So
entry `(p, q)` of what step `t` writes back is the layer's entry `(400·t + p, q)`, and the 25 blocks tile the array. -/

namespace Cert.KernelIdeal.Whole

open Cert.KernelIdeal Cert.KernelIdeal.Gen Idealize.ShloMosaic.ValueIdx Cert.GcnSpec

variable (m : (ℓ : Loc nD τ sig) → Buf (Elt Ideal) ℓ) (ρ : Dev nD → PrngReg)

/-- The block indices over the grid: the adjacency and the result move one block of rows per step, every other
    window stays at block `(0, 0)`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first grid step. -/
abbrev t0 : Fin cfg0.N := ⟨0, lt_of_lt_of_eq (Nat.zero_lt_succ 24) (show 25 = cfg0.N from N_0.symm)⟩

/-! ## The carried scratch -/

/-- The feature matrix as the first step stores it: of that step's `seq` and `W` blocks. -/
def feats (c : Dev nD) : Vec Ideal S10000x128 .f32 := k0_pay1 (iblk m c 0 t0) (iblk m c 2 t0)

/-- After every step the scratch holds the feature matrix: stored at step 0, untouched afterwards. -/
theorem carried_eq (c : Dev nD) : ∀ (n : ℕ) (hn : n < cfg0.N), (outsAt0 m c n hn).2 = feats m c
  | 0, hn => by
    refine (congrArg Prod.snd (outsAt0_A m c ⟨0, hn⟩ rfl)).trans ?_
    dsimp only
    exact Found.scratch_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩)
  | n + 1, hn => by
    have hN : cfg0.N = 25 := N_0
    have hB : ¬(⟨n + 1, hn⟩ : Fin cfg0.N).val % 25 = 0 := by dsimp only; omega
    refine (congrArg Prod.snd (outsAt0_B m c ⟨n + 1, hn⟩ hB)).trans ?_
    dsimp only
    unfold sout0_B_0
    exact carried_eq c n (Nat.lt_of_succ_lt hn)

/-- What step `t` leaves in its output block: the rectified sum over its adjacency rows and the feature matrix. -/
theorem out_eq (c : Dev nD) (t : Fin cfg0.N) :
    (outsAt0 m c t.val t.isLt).1 = k0_pay2 (iblk m c 1 t) (feats m c) (iblk m c 3 t) (iblk m c 4 t) := by
  have hN : cfg0.N = 25 := N_0
  by_cases h0 : t.val % 25 = 0
  · have ht : t = t0 := Fin.ext (by have := t.isLt; show t.val = 0; omega)
    subst ht
    refine (congrArg Prod.fst (outsAt0_A m c t0 h0)).trans ?_
    dsimp only
    exact Found.out_first c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) ((hcond0_0 t0).mpr h0) (iblk m c 0 t0) (iblk m c 1 t0) (iblk m c 2 t0) (iblk m c 3 t0) (iblk m c 4 t0)
  · refine (congrArg Prod.fst (outsAt0_B m c t h0)).trans ?_
    dsimp only
    refine (Found.out_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2).trans ?_
    rw [carried_eq m c (t.val - 1) _]

/-! ## The blocks, read off the argument arrays -/

/-- The `seq` block is all of `seq`, at every step. -/
theorem seq_block (c : Dev nD) (t : Fin cfg0.N) (k : Fin 10000) (e : Fin 128) :
    iblk m c 0 t (ix2 k e) = m ((c : Thread nD τ).loc main_arg0) (ix2 k e) := by
  obtain ⟨e0, e1, -⟩ := idx_facts t
  show V m c main_arg0 (((cfg0.win 0).blk t).view.emb (ix2 k e)) = _
  rw [V_main_arg0]
  refine congrArg _ (funext fun a => Fin.ext ?_)
  match a with
  | ⟨0, _⟩ => show win0_0.index t (0 : Fin 2) * 10000 + 1 * k.val = k.val; omega
  | ⟨1, _⟩ => show win0_0.index t (1 : Fin 2) * 128 + 1 * e.val = e.val; omega

/-- The `W` block is all of `W`, at every step. -/
theorem w_block (c : Dev nD) (t : Fin cfg0.N) (j : Fin 128) (e : Fin 128) :
    iblk m c 2 t (ix2 j e) = m ((c : Thread nD τ).loc main_arg2) (ix2 j e) := by
  obtain ⟨-, -, -, -, e0, e1, -⟩ := idx_facts t
  show V m c main_arg2 (((cfg0.win 2).blk t).view.emb (ix2 j e)) = _
  rw [V_main_arg2]
  refine congrArg _ (funext fun a => Fin.ext ?_)
  match a with
  | ⟨0, _⟩ => show win0_2.index t (0 : Fin 2) * 128 + 1 * j.val = j.val; omega
  | ⟨1, _⟩ => show win0_2.index t (1 : Fin 2) * 128 + 1 * e.val = e.val; omega

/-- Row `p` of the adjacency block at step `t` is row `400·t + p` of the adjacency. -/
theorem adj_block (c : Dev nD) (t : Fin cfg0.N) (p : Fin 400) (k : Fin 10000) (r : Fin 10000)
    (hr : r.val = 400 * t.val + p.val) :
    iblk m c 1 t (ix2 p k) = m ((c : Thread nD τ).loc main_arg1) (ix2 r k) := by
  obtain ⟨-, -, e0, e1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 400 + 1 * p.val = r.val; omega
  | ⟨1, _⟩ => show win0_1.index t (1 : Fin 2) * 10000 + 1 * k.val = k.val; omega

/-- The bias row the region finds: the bias vector with a leading unit axis. -/
theorem bias_row (c : Dev nD) :
    (V m c main_v0 : S1x128.Idx → EReal)
      = shapeCast S1x128 (m ((c : Thread nD τ).loc main_arg3)) Facts₀.shapeCasts_S128_S1x128 := by
  dsimp only [V, hostOps0]; after_results; rfl

/-- The slope block the region finds: the scalar slope as a `1 × 1` array. -/
theorem slope_cell (c : Dev nD) :
    (V m c main_v1 : S1x1.Idx → EReal)
      = shapeCast S1x1 (m ((c : Thread nD τ).loc main_arg4)) Facts₀.shapeCasts_S_S1x1 := by
  dsimp only [V, hostOps0]; after_results; rfl

/-- Entry `q` of the bias block's one row is entry `q` of the bias, at every step. -/
theorem bias_block (c : Dev nD) (t : Fin cfg0.N) (q : Fin 128) :
    iblk m c 3 t (ix2 (0 : Fin 1) q) = m ((c : Thread nD τ).loc main_arg3) (ix1 q) := by
  obtain ⟨-, -, -, -, -, -, e0, e1, -⟩ := idx_facts t
  show V m c main_v0 (((cfg0.win 3).blk t).view.emb (ix2 (0 : Fin 1) q)) = _
  have he : ((cfg0.win 3).blk t).view.emb (ix2 (0 : Fin 1) q) = ix2 (0 : Fin 1) q :=
    funext fun a => Fin.ext (by
      match a with
      | ⟨0, _⟩ => show win0_3.index t (0 : Fin 2) * 1 + 1 * 0 = 0; omega
      | ⟨1, _⟩ => show win0_3.index t (1 : Fin 2) * 128 + 1 * q.val = q.val; omega)
  rw [he, bias_row, shapeCast_a_1a_apply]

/-- The slope block's one entry is the slope, at every step. -/
theorem slope_block (c : Dev nD) (t : Fin cfg0.N) :
    iblk m c 4 t (ix2 (0 : Fin 1) (0 : Fin 1)) = m ((c : Thread nD τ).loc main_arg4) ix0 := by
  show V m c main_v1 (((cfg0.win 4).blk t).view.emb (ix2 (0 : Fin 1) (0 : Fin 1))) = _
  rw [slope_cell]
  unfold shapeCast
  exact congrArg _ (funext fun a => a.elim0)

/-- The carried feature matrix, entry by entry, over the argument arrays. -/
theorem feats_apply (c : Dev nD) (k : Fin 10000) (j : Fin 128) :
    feats m c (ix2 k j)
      = feat (m ((c : Thread nD τ).loc main_arg0)) (m ((c : Thread nD τ).loc main_arg2)) k j := by
  refine (Payload.features_apply (iblk m c 0 t0) (iblk m c 2 t0) k j).trans ?_
  unfold feat
  refine Finset.sum_congr rfl fun e _ => ?_
  rw [seq_block m c t0 k e, w_block m c t0 j e]

/-! ## What each step writes back, and the whole array -/

/-- The layer of the argument arrays, as contents of the result array. -/
def result (c : Dev nD) : Buf (Elt Ideal) ((c : Thread nD τ).loc main_v2) :=
  layer (m ((c : Thread nD τ).loc main_arg0)) (m ((c : Thread nD τ).loc main_arg1))
    (m ((c : Thread nD τ).loc main_arg2)) (m ((c : Thread nD τ).loc main_arg3)) (m ((c : Thread nD τ).loc main_arg4))

/-- Step `t` writes back block `t` of the layer. -/
theorem flushed_eq (c : Dev nD) (t : Fin cfg0.N) :
    (dats m 0 c).flushed 5 t = ((cfg0.win 5).blk t).view.read (Elt Ideal) (result m c) := by
  obtain ⟨-, -, -, -, -, -, -, -, -, -, e0, e1⟩ := idx_facts t
  have hN : cfg0.N = 25 := N_0
  rw [Value.flushed5, out_eq]
  funext y
  obtain ⟨p, q, rfl⟩ : ∃ (p : Fin 400) (q : Fin 128), y = ix2 p q := ⟨y 0, y 1, eq_ix2 y⟩
  have hr : 400 * t.val + p.val < 10000 := by have := t.isLt; have := p.isLt; omega
  show k0_pay2 (iblk m c 1 t) (feats m c) (iblk m c 3 t) (iblk m c 4 t) (ix2 p q)
    = result m c (((cfg0.win 5).blk t).view.emb (ix2 p q))
  refine Payload.entry_eq (m ((c : Thread nD τ).loc main_arg0)) (m ((c : Thread nD τ).loc main_arg1))
    (m ((c : Thread nD τ).loc main_arg2)) (m ((c : Thread nD τ).loc main_arg3)) (m ((c : Thread nD τ).loc main_arg4))
    (iblk m c 1 t) (feats m c) (iblk m c 3 t) (iblk m c 4 t) ⟨400 * t.val + p.val, hr⟩ p q
    (fun k => adj_block m c t p k _ rfl) (fun k => feats_apply m c k q) (bias_block m c t q) (slope_block m c t)
    (((cfg0.win 5).blk t).view.emb (ix2 p q)) ?_
  refine funext fun a => Fin.ext ?_
  match a with
  | ⟨0, _⟩ => show win0_5.index t (0 : Fin 2) * 400 + 1 * p.val = 400 * t.val + p.val; omega
  | ⟨1, _⟩ => show win0_5.index t (1 : Fin 2) * 128 + 1 * q.val = q.val; omega

/-- An index of the array is in step `t`'s block iff each coordinate is in the block's range on its axis. -/
theorem mem_blk (t : Fin cfg0.N) (i : S10000x128.Idx) :
    i ∈ ((cfg0.win 5).blk t).view.set
      ↔ ∀ a : Fin 2, win0_5.index t a * S400x128.size a ≤ (i a).val
          ∧ (i a).val < win0_5.index t a * S400x128.size a + S400x128.size a := by
  show i ∈ ((View.whole main_v2).slice (win0_5.rect t)).set ↔ _
  rw [View.set_slice_whole, Rect.mem_set_unit]
  exact Iff.rfl

/-- Row `r` of the array lies in the block of step `r / 400`: the 25 blocks tile the array. -/
theorem cover (i : S10000x128.Idx) :
    ∃ t : Fin cfg0.N, (cfg0.win 5).flush t = true ∧ i ∈ ((cfg0.win 5).blk t).view.set := by
  have hN : cfg0.N = 25 := N_0
  have hi0 : (i 0).val < 10000 := (i 0).isLt
  have hi1 : (i 1).val < 128 := (i 1).isLt
  have ht : (i 0).val / 400 < cfg0.N := by omega
  obtain ⟨-, -, -, -, -, -, -, -, -, -, e0, e1⟩ := idx_facts ⟨(i 0).val / 400, ht⟩
  refine ⟨⟨(i 0).val / 400, ht⟩, flush0_5 _, ?_⟩
  rw [mem_blk]
  intro a
  match a with
  | ⟨0, _⟩ =>
    show win0_5.index ⟨(i 0).val / 400, ht⟩ (0 : Fin 2) * 400 ≤ (i 0).val
      ∧ (i 0).val < win0_5.index ⟨(i 0).val / 400, ht⟩ (0 : Fin 2) * 400 + 400
    rw [e0]; dsimp only; omega
  | ⟨1, _⟩ =>
    show win0_5.index ⟨(i 0).val / 400, ht⟩ (1 : Fin 2) * 128 ≤ (i 1).val
      ∧ (i 1).val < win0_5.index ⟨(i 0).val / 400, ht⟩ (1 : Fin 2) * 128 + 128
    rw [e1]; omega

/-- After the run the result array holds the layer of the argument arrays. -/
theorem final (c : Dev nD) : (dats m 0 c).arrAt 5 cfg0.N = result m c :=
  (dats m 0 c).arrAt_eq_of_cover 5 (result m c) (fun t _ => flushed_eq m c t) cover

/-- Every weakly fair execution of the kernel's program ends with the result array at the layer of the arguments,
    and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefLayer.lean ====
import proofs.«181563_g42597485642290_cont_8to1_b_1741_11_alg».proof.Proof.Gen.ReferenceIdeal.Read
import proofs.«181563_g42597485642290_cont_8to1_b_1741_11_alg».proof.Proof.GcnSpec

noncomputable section

open Idealize.ShloMosaic

/-! # The reference program computes the layer

The reference transposes `W`, multiplies `seq` by it (so entry `(k, j)` sums `seq[k, e] · W[j, e]` over `e`),
multiplies the adjacency by that product, adds the bias repeated down the rows, and selects between the sum and the
slope times the sum by the sign test: read one operation at a time at an index, that is the layer's entry. -/

namespace Cert.ReferenceIdeal.RefLayer

open Cert.ReferenceIdeal Cert.ReferenceIdeal.Read Idealize.ShloMosaic.ValueIdx Cert.GcnSpec

/-- The reference's result, as a function of its five arguments, is the layer. -/
theorem reference_eq (x0 : (⟨S10000x128, .f32⟩ : BufTy).Contents (Elt Ideal))
    (x1 : (⟨S10000x10000, .f32⟩ : BufTy).Contents (Elt Ideal)) (x2 : (⟨S128x128, .f32⟩ : BufTy).Contents (Elt Ideal))
    (x3 : (⟨S128, .f32⟩ : BufTy).Contents (Elt Ideal)) (x4 : (⟨S_, .f32⟩ : BufTy).Contents (Elt Ideal)) :
    val_main_v10 (F := Ideal) x0 x1 x2 x3 x4 = layer x0 x1 x2 x3 x4 := by
  funext i
  -- the indices the operations read their operands at, by coordinates
  have e1 : ∀ k : Fin 10000, lidx_main_v2 i k = ix2 (i 0) k := fun k =>
    funext fun a => Fin.ext (by match a with | ⟨0, _⟩ => rfl | ⟨1, _⟩ => rfl)
  have e2 : ∀ (k : Fin 10000) (e : Fin 128), lidx_main_v1 (ridx_main_v2 i k) e = ix2 k e := fun k e =>
    funext fun a => Fin.ext (by match a with | ⟨0, _⟩ => rfl | ⟨1, _⟩ => rfl)
  have e3 : ∀ (k : Fin 10000) (e : Fin 128), idx_main_v0 (ridx_main_v1 (ridx_main_v2 i k) e) = ix2 (i 1) e := fun k e =>
    funext fun a => Fin.ext (by match a with | ⟨0, _⟩ => rfl | ⟨1, _⟩ => rfl)
  have e4 : idx_main_v3 (idx_main_v4 i) = ix1 (i 1) :=
    funext fun a => Fin.ext (by match a with | ⟨0, _⟩ => rfl)
  have e5 : idx_main_v8 i = ix0 := funext fun a => a.elim0
  rw [val_main_v10_apply, val_main_v7_apply, val_main_v9_apply, val_main_v8_apply, val_main_v6_apply,
    val_main_cst_apply, val_main_v5_apply, val_main_v4_apply, val_main_v3_apply, val_main_v2_apply]
  simp only [val_main_v1_apply, val_main_v0_apply, e1, e2, e3, e4, e5]
  rfl

end Cert.ReferenceIdeal.RefLayer

end
-- ==== Proof.lean ====
/-
  One graph-convolution layer, `PReLU(adj · (seq · Wᵀ) + bias)`, computed two ways over the extended reals.

  The kernel walks the 10000 rows of the result in 25 blocks of 400. At the first block it forms the feature matrix
  `seq · Wᵀ` (entry `(k, j)` is `Σ_e seq[k, e] · W[j, e]`) and keeps it; at every block it multiplies its 400
  adjacency rows by the kept feature matrix, adds the bias row and applies the rectifier with slope `a`. The
  reference transposes `W`, forms the same two products over the whole arrays, adds the bias and selects by the same
  sign test. Entry `(r, j)` of either result is

      z = (Σ_k adj[r, k] · (Σ_e seq[k, e] · W[j, e])) + bias[j],      z if z ≥ 0, else a · z,

  the same sums of the same products in the same nesting on both sides; no sum is re-arranged, so nothing asks an
  entry to be finite and the precondition is never opened. Each of the three programs terminates without a fault
  and leaves its arguments as they were; the kernel's idealization rewrote no operation.
-/
import proofs.«181563_g42597485642290_cont_8to1_b_1741_11_alg».proof.Defs
import proofs.«181563_g42597485642290_cont_8to1_b_1741_11_alg».proof.Proof.Gen.Kernel
import proofs.«181563_g42597485642290_cont_8to1_b_1741_11_alg».proof.Proof.Gen.Kernel.Skeleton
import proofs.«181563_g42597485642290_cont_8to1_b_1741_11_alg».proof.Proof.Gen.Kernel.Launch
import proofs.«181563_g42597485642290_cont_8to1_b_1741_11_alg».proof.Proof.Gen.Kernel.Points
import proofs.«181563_g42597485642290_cont_8to1_b_1741_11_alg».proof.Proof.Gen.Kernel.Frame
import proofs.«181563_g42597485642290_cont_8to1_b_1741_11_alg».proof.Proof.Gen.KernelIdeal
import proofs.«181563_g42597485642290_cont_8to1_b_1741_11_alg».proof.Proof.Gen.KernelIdeal.Skeleton
import proofs.«181563_g42597485642290_cont_8to1_b_1741_11_alg».proof.Proof.Gen.KernelIdeal.Launch
import proofs.«181563_g42597485642290_cont_8to1_b_1741_11_alg».proof.Proof.Gen.KernelIdeal.Points
import proofs.«181563_g42597485642290_cont_8to1_b_1741_11_alg».proof.Proof.Gen.KernelIdeal.Frame
import proofs.«181563_g42597485642290_cont_8to1_b_1741_11_alg».proof.Proof.Gen.ReferenceIdeal
import proofs.«181563_g42597485642290_cont_8to1_b_1741_11_alg».proof.Proof.Gen.Pre_finite_inputs
import proofs.«181563_g42597485642290_cont_8to1_b_1741_11_alg».proof.Proof.Gen.KernelIdeal.Value
import proofs.«181563_g42597485642290_cont_8to1_b_1741_11_alg».proof.Proof.Gen.ReferenceIdeal.Run
import proofs.«181563_g42597485642290_cont_8to1_b_1741_11_alg».proof.Proof.Gen.ReferenceIdeal.Read
import proofs.«181563_g42597485642290_cont_8to1_b_1741_11_alg».proof.Proof.Whole
import proofs.«181563_g42597485642290_cont_8to1_b_1741_11_alg».proof.Proof.RefLayer
import Idealize.ShloMosaic.Adequacy
import Idealize.ShloMosaic.Init

noncomputable section

namespace Cert.Proof

open Idealize.ShloMosaic Idealize.ShloMosaic.TcCoe Idealize.SL.Sem

/-- The kernel as printed runs to the end and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of whole-array operations: it runs to the end and keeps its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, both programs end with the layer of those arguments in their
    result arrays: the kernel block by block, the reference operation by operation. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefLayer.reference_eq, (hagree c).1,
    (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
